-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S100000x128 : Shape := ⟨2, ![100000, 128]⟩
abbrev S100000 : Shape := ⟨1, ![100000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x128 .f32) (main_arg1 : IVec S1024 32) (main_arg2 : FVec F S100000x128 .f32) (main_arg3 : FVec F S100000 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x128 : Shape := ⟨2, ![1024, 128]⟩
abbrev S1024 : Shape := ⟨1, ![1024]⟩
abbrev S100000x128 : Shape := ⟨2, ![100000, 128]⟩
abbrev S100000 : Shape := ⟨1, ![100000]⟩
abbrev S100000x1 : Shape := ⟨2, ![100000, 1]⟩
abbrev S100000x1024 : Shape := ⟨2, ![100000, 1024]⟩
abbrev S5000x128 : Shape := ⟨2, ![5000, 128]⟩
abbrev S5000x1 : Shape := ⟨2, ![5000, 1]⟩
abbrev S5000x1024 : Shape := ⟨2, ![5000, 1024]⟩
abbrev S1024x100000 : Shape := ⟨2, ![1024, 100000]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S100000, .f32⟩
  | .hbm, ⟨4, _⟩ => ⟨S100000x1, .f32⟩
  | .hbm, ⟨5, _⟩ => ⟨S100000x1024, .f32⟩
  | .hbm, ⟨6, _⟩ => ⟨S1024x100000, .f32⟩
  | .local _ .vmem, ⟨0, _⟩ => ⟨S1024x128, .f32⟩
  | .local _ .vmem, ⟨1, _⟩ => ⟨S5000x128, .f32⟩
  | .local _ .vmem, ⟨2, _⟩ => ⟨S5000x128, .f32⟩
  | .local _ .vmem, ⟨3, _⟩ => ⟨S5000x1, .f32⟩
  | .local _ .vmem, ⟨4, _⟩ => ⟨S5000x1, .f32⟩
  | .local _ .vmem, ⟨5, _⟩ => ⟨S5000x1024, .f32⟩
  | .local _ .vmem, ⟨6, _⟩ => ⟨S5000x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S1024x128_S1024x128_0_0 : ∀ a, (![0, 0] : Fin 2 → Nat) a + S1024x128.size a ≤ S1024x128.size a
  h_S1024x128 : 0 < S1024x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x1024 : S5000x1.Broadcasts S5000x1024
  inb_S5000x1024_S5000x1024_0_0 : ∀ a, (![0, 0] : Fin 2 → Nat) a + S5000x1024.size a ≤ S5000x1024.size a
  h_S5000x1024 : 0 < S5000x1024.numel
  transposes_S100000x1024_S1024x100000_1_0 : S100000x1024.Transposes [1, 0] S1024x100000
  dot_S5000x128_S1024x128_S5000x1024_1_1_0_0_n_n_wf : DotDims.WF S5000x128 S1024x128 S5000x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1024.size a ≤ S100000x1024.size a
  hwx0_3 : ∀ i : grid0.Coords, EltTy.bits .f32 = 32 ∨ (Rect.block (s := S100000x1024) S5000x1024.size (cc0_transform_3 i) (hinb0_3 i)).WholeWords (EltTy.packing .f32)

variable [Facts₀]

def dot_S5000x128_S1024x128_S5000x1024_1_1_0_0_n_n : DotDims S5000x128 S1024x128 S5000x1024 where
  lhsContracting := [1]
  rhsContracting := [1]
  lhsNonContracting := [0]
  rhsNonContracting := [0]
  lhsBatch := []
  rhsBatch := []
  wf := dot_S5000x128_S1024x128_S5000x1024_1_1_0_0_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024 : Shape := ⟨1, ![1024]⟩
abbrev S100000x128 : Shape := ⟨2, ![100000, 128]⟩
abbrev S100000 : Shape := ⟨1, ![100000]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 9
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S100000, .f32⟩
  | .hbm, ⟨4, _⟩ => ⟨S128x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  dot_S1024x128_S128x100000_S1024x100000_1_0_0_1_n_n_wf : DotDims.WF S1024x128 S128x100000 S1024x100000 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.Logits.lean ====
/-
  The output-projection logits as ONE function of the three float arguments, over the extended reals.

  For activations x : [1024, 128], weights W : [100000, 128] and bias b : [100000], the logit of batch row n and
  vocabulary row v is

      logitAt x W b n v = (∑ k < 128, x[n, k] · W[v, k]) + b[v].

  `logits` lays these out as [1024, 100000] (batch along the rows), `logitsT` as [100000, 1024] (vocabulary along
  the rows): the second is the first transposed, entry by entry, by definition. `dot_comm` is the one law the two
  programs differ by: the contraction may multiply its factors in either order, since multiplication of extended
  reals is commutative (no finiteness is needed for that).
-/
import Idealize.ShloMosaic.PureOps.Ideal
import Idealize.ShloMosaic.Lib.ValueIdx

noncomputable section

open scoped BigOperators

namespace Cert.Logits

open Idealize.ShloMosaic Idealize.ShloMosaic.ValueIdx

/-- The logit of batch row `n` and vocabulary row `v`: the row of `x` against the row of `W`, plus the bias of `v`. -/
def logitAt (x : (⟨2, ![1024, 128]⟩ : Shape).Idx → EReal) (W : (⟨2, ![100000, 128]⟩ : Shape).Idx → EReal)
    (b : (⟨1, ![100000]⟩ : Shape).Idx → EReal) (n : Fin 1024) (v : Fin 100000) : EReal :=
  (∑ k : Fin 128, x (ix2 n k) * W (ix2 v k)) + b (ix1 v)

/-- The logits, batch along the rows: entry (n, v). -/
def logits (x : (⟨2, ![1024, 128]⟩ : Shape).Idx → EReal) (W : (⟨2, ![100000, 128]⟩ : Shape).Idx → EReal)
    (b : (⟨1, ![100000]⟩ : Shape).Idx → EReal) : (⟨2, ![1024, 100000]⟩ : Shape).Idx → EReal :=
  fun i => logitAt x W b (i 0) (i 1)

/-- The logits, vocabulary along the rows: entry (v, n). -/
def logitsT (x : (⟨2, ![1024, 128]⟩ : Shape).Idx → EReal) (W : (⟨2, ![100000, 128]⟩ : Shape).Idx → EReal)
    (b : (⟨1, ![100000]⟩ : Shape).Idx → EReal) : (⟨2, ![100000, 1024]⟩ : Shape).Idx → EReal :=
  fun j => logitAt x W b (j 1) (j 0)

theorem logits_apply (x : (⟨2, ![1024, 128]⟩ : Shape).Idx → EReal) (W : (⟨2, ![100000, 128]⟩ : Shape).Idx → EReal)
    (b : (⟨1, ![100000]⟩ : Shape).Idx → EReal) (n : Fin 1024) (v : Fin 100000) :
    logits x W b (ix2 n v) = logitAt x W b n v := rfl

theorem logitsT_apply (x : (⟨2, ![1024, 128]⟩ : Shape).Idx → EReal) (W : (⟨2, ![100000, 128]⟩ : Shape).Idx → EReal)
    (b : (⟨1, ![100000]⟩ : Shape).Idx → EReal) (v : Fin 100000) (n : Fin 1024) :
    logitsT x W b (ix2 v n) = logitAt x W b n v := rfl

/-- The contraction with its factors in the other order: weights times activations is activations times weights. -/
theorem dot_comm (x : (⟨2, ![1024, 128]⟩ : Shape).Idx → EReal) (W : (⟨2, ![100000, 128]⟩ : Shape).Idx → EReal)
    (n : Fin 1024) (v : Fin 100000) :
    (∑ k : Fin 128, W (ix2 v k) * x (ix2 n k)) = ∑ k : Fin 128, x (ix2 n k) * W (ix2 v k) :=
  Finset.sum_congr rfl fun k _ => mul_comm _ _

end Cert.Logits

end
-- ==== Proof.ReferenceLogits.lean ====
/-
  The reference program's result, read entry by entry, is `logits` of its three float arguments.

  The reference transposes W to [128, 100000], contracts x's second axis against that array's first, broadcasts the
  bias along the batch axis and adds. At entry (n, v) the contraction reads x[n, k] and (Wᵀ)[k, v] = W[v, k], and
  the two broadcasts read b[v]: that is `logitAt x W b n v`.
-/
import proofs.«133660_g51384988729771_cont_8to1_c_500_27_alg».proof.Proof.Gen.ReferenceIdeal.Read
import proofs.«133660_g51384988729771_cont_8to1_c_500_27_alg».proof.Proof.Logits

noncomputable section

open scoped BigOperators

namespace Cert.ReferenceIdeal.RefValue

open Cert.ReferenceIdeal Cert.ReferenceIdeal.Read Idealize.ShloMosaic Idealize.ShloMosaic.ValueIdx

/-- The left operand of the contraction at entry (n, v) and position k is x[n, k]. -/
theorem lidx_eq (n : Fin 1024) (v : Fin 100000) (k : Fin 128) : lidx_main_v1 (ix2 n v) k = ix2 n k :=
  funext fun a => Fin.ext (by match a with | ⟨0, _⟩ => rfl | ⟨1, _⟩ => rfl)

/-- The right operand, the transposed weights at (k, v), is W[v, k]. -/
theorem ridx_eq (n : Fin 1024) (v : Fin 100000) (k : Fin 128) : idx_main_v0 (ridx_main_v1 (ix2 n v) k) = ix2 v k :=
  funext fun a => Fin.ext (by match a with | ⟨0, _⟩ => rfl | ⟨1, _⟩ => rfl)

/-- The bias broadcast to [1, 100000] and then along the batch axis reads b[v] at entry (n, v). -/
theorem bidx_eq (n : Fin 1024) (v : Fin 100000) : idx_main_v2 (idx_main_v3 (ix2 n v)) = ix1 v :=
  funext fun a => Fin.ext (by match a with | ⟨0, _⟩ => rfl)

/-- The reference's result is `logits`. -/
theorem result_eq (x : (⟨S1024x128, .f32⟩ : BufTy).Contents (Elt Ideal)) (W : (⟨S100000x128, .f32⟩ : BufTy).Contents (Elt Ideal))
    (b : (⟨S100000, .f32⟩ : BufTy).Contents (Elt Ideal)) :
    val_main_v4 (F := Ideal) x W b = Cert.Logits.logits x W b := by
  funext i
  obtain ⟨n, v, rfl⟩ : ∃ (n : Fin 1024) (v : Fin 100000), i = ix2 n v := ⟨i 0, i 1, eq_ix2 i⟩
  rw [val_main_v4_apply, val_main_v1_apply, val_main_v3_apply, val_main_v2_apply, bidx_eq, Cert.Logits.logits_apply]
  unfold Cert.Logits.logitAt
  simp only [val_main_v0_apply, lidx_eq, ridx_eq, Ideal.addf_def]

end Cert.ReferenceIdeal.RefValue

end
-- ==== Proof.BlockProduct.lean ====
/-
  What the kernel body stores, read at one entry of its [5000, 1024] block.

  The body multiplies its 5000 rows of W against all 1024 rows of x, contracting the 128-long second axis of both,
  into a zero accumulator, and adds the block's bias column broadcast along the 1024 lanes. At entry (p, q) that is

      (∑ k < 128, Wblk[p, k] · x[q, k]) + bcol[p, 0].
-/
import proofs.«133660_g51384988729771_cont_8to1_c_500_27_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The contraction's dimension numbers: both operands contract their axis 1; the result's axes are the left rows then
    the right rows. -/
abbrev dims := dot_S5000x128_S1024x128_S5000x1024_1_1_0_0_n_n

theorem lhs_row (j : S5000x1024.Idx) (q : dims.contr.Idx) : (dims.lhsIdx j q 0).val = (j 0).val := by
  unfold DotDims.lhsIdx
  rw [dif_neg (show ¬(0 : Fin S5000x128.rank) ∈ dims.lhsBatch by decide), dif_pos (show (0 : Fin S5000x128.rank) ∈ dims.lhsNonContracting by decide)]
  rfl
theorem lhs_col (j : S5000x1024.Idx) (q : dims.contr.Idx) : (dims.lhsIdx j q 1).val = (q ⟨0, by decide⟩).val :=
  dims.lhsIdx_val_of_single rfl j q
theorem rhs_row (j : S5000x1024.Idx) (q : dims.contr.Idx) : (dims.rhsIdx j q 0).val = (j 1).val := by
  unfold DotDims.rhsIdx
  rw [dif_neg (show ¬(0 : Fin S1024x128.rank) ∈ dims.rhsBatch by decide), dif_pos (show (0 : Fin S1024x128.rank) ∈ dims.rhsNonContracting by decide)]
  rfl
theorem rhs_col (j : S5000x1024.Idx) (q : dims.contr.Idx) : (dims.rhsIdx j q 1).val = (q ⟨0, by decide⟩).val :=
  dims.rhsIdx_val_of_single rfl j q

/-- The matrix product into the zero accumulator at entry (p, q): row p of the left operand against row q of the right. -/
theorem product_apply (w : FVec Ideal S5000x128 .f32) (x : FVec Ideal S1024x128 .f32) (p : Fin 5000) (q : Fin 1024) :
    matmul (F := Ideal) dims none w x (constant (F := Ideal) S5000x1024 .f32 0x00000000#32) (ix2 p q)
      = ∑ k : Fin 128, w (ix2 p k) * x (ix2 q k) := by
  simp only [matmul]
  rw [Ideal.matmul_constant_zero_apply, ← Equiv.sum_comp (contrEquiv1 dims 128 rfl rfl).symm]
  refine Finset.sum_congr rfl fun k _ => ?_
  have hk := contrEquiv1_symm_val dims 128 rfl rfl k
  have el : dims.lhsIdx (ix2 p q) ((contrEquiv1 dims 128 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 128 rfl rfl).symm k) = ix2 q k := funext fun a => Fin.ext (by
    match a with
    | ⟨0, _⟩ => exact rhs_row _ _
    | ⟨1, _⟩ => exact (rhs_col _ _).trans hk)
  rw [el, er]

/-- The bias column broadcast along the lanes reads the column's entry of the same row. -/
theorem bias_apply (bcol : FVec Ideal S5000x1 .f32) (p : Fin 5000) (q : Fin 1024) :
    broadcastTo S5000x1024 (shapeCast S5000x1 bcol shapeCasts_S5000x1_S5000x1) broadcasts_S5000x1_S5000x1024 (ix2 p q)
      = bcol (ix2 p 0) := by
  rw [shapeCast_self]
  exact broadcastTo_apply bcol broadcasts_S5000x1_S5000x1024 (ix2 p q) (ix2 p 0) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The stored value at entry (p, q). -/
theorem stored_apply (w : Vec Ideal S5000x128 .f32) (x : Vec Ideal S1024x128 .f32) (bcol : Vec Ideal S5000x1 .f32)
    (p : Fin 5000) (q : Fin 1024) :
    k0_pay1 (F := Ideal) w x bcol (ix2 p q) = (∑ k : Fin 128, w (ix2 p k) * x (ix2 q k)) + bcol (ix2 p 0) := by
  unfold k0_pay1
  refine (addf_apply _ _ (ix2 p q)).trans ?_
  exact congrArg₂ (· + ·) (product_apply w x p q) (bias_apply bcol p q)

end Cert.KernelIdeal.BlockProduct

end
-- ==== Proof.RegionArray.lean ====
/-
  The array the kernel region writes is `logitsT` of the three float arguments.

  The region walks the 20 row blocks of the [100000, 1024] array, 5000 vocabulary rows each. At point t it reads all of
  x, rows 5000·t … 5000·t + 4999 of W, and the same rows of the bias laid out as a [100000, 1] column (a reshape of b
  done before the region), and writes back the stored block: entry (p, q) of the block is array entry
  (5000·t + p, q), and its value is row 5000·t + p of W against row q of x plus b[5000·t + p] — the factors of each
  product in the order weights · activations, which `dot_comm` turns into `logitAt`'s. Every row r of the array lies
  in the block of point r / 5000, so the 20 blocks cover it and the array ends holding `logitsT`.
-/
import proofs.«133660_g51384988729771_cont_8to1_c_500_27_alg».proof.Proof.Gen.KernelIdeal.Frame
import proofs.«133660_g51384988729771_cont_8to1_c_500_27_alg».proof.Proof.BlockProduct
import proofs.«133660_g51384988729771_cont_8to1_c_500_27_alg».proof.Proof.Logits
import Idealize.ShloMosaic.Lib.Pipeline.Value
import Idealize.ShloMosaic.Lib.StableHlo.Run
import Idealize.ShloMosaic.Lib.ValueIdx

noncomputable section

open scoped BigOperators

namespace Cert.KernelIdeal.RegionArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The region's array as a function of the arguments at launch. -/
abbrev target (c : Dev nD) : S100000x1024.Idx → EReal :=
  Cert.Logits.logitsT (m ((c : Thread nD τ).loc main_arg0)) (m ((c : Thread nD τ).loc main_arg2)) (m ((c : Thread nD τ).loc main_arg3))

/-- Which block each window is on at point t: x stays on its one block; W, the bias column and the output are on row
    block t. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The bias column the region finds is b reshaped to [100000, 1]. -/
theorem bias_column (c : Dev nD) :
    (V m c main_v0 : S100000x1.Idx → EReal)
      = shapeCast S100000x1 (m ((c : Thread nD τ).loc main_arg3) : S100000.Idx → EReal) shapeCasts_S100000_S100000x1 := by
  show StableHlo.after hostOps0 (fun b => m (c, b)) (Proc.devRef .tc main_v0) = _
  after_results
  rfl

/-- Its entry in row r is b[r]. -/
theorem bias_column_apply (c : Dev nD) (r : Fin 100000) :
    (V m c main_v0 : S100000x1.Idx → EReal) (ix2 r 0) = (m ((c : Thread nD τ).loc main_arg3) : S100000.Idx → EReal) (ix1 r) := by
  rw [bias_column]
  exact shapeCast_apply _ shapeCasts_S100000_S100000x1 (ix2 r 0) (ix1 r) (by
    rw [Shape.rowMajor_val_two, Shape.rowMajor_val_one]; show r.val = r.val * 1 + 0; omega)

/-- The x block at any point is all of x. -/
theorem x_block (c : Dev nD) (t : Fin cfg0.N) (q : Fin 1024) (k : Fin 128) :
    (iblk m c 0 t : Vec Ideal S1024x128 .f32) (ix2 q k) = (m ((c : Thread nD τ).loc main_arg0) : S1024x128.Idx → EReal) (ix2 q k) := by
  obtain ⟨e00, e01, -⟩ := block_index t
  unfold iblk
  rw [View.read_apply]
  show V m c main_arg0 _ = _
  rw [V_main_arg0]
  refine congrArg (m ((c : Thread nD τ).loc main_arg0) : S1024x128.Idx → EReal) (funext fun a => Fin.ext ?_)
  match a with
  | ⟨0, _⟩ => show win0_0.index t (0 : Fin 2) * 1024 + 1 * q.val = q.val; rw [e00]; omega
  | ⟨1, _⟩ => show win0_0.index t (1 : Fin 2) * 128 + 1 * k.val = k.val; rw [e01]; omega

/-- Row p of the W block at point t is row 5000·t + p of W. -/
theorem w_block (c : Dev nD) (t : Fin cfg0.N) (p : Fin 5000) (k : Fin 128) (r : Fin 100000) (hr : r.val = 5000 * t.val + p.val) :
    (iblk m c 1 t : Vec Ideal S5000x128 .f32) (ix2 p k) = (m ((c : Thread nD τ).loc main_arg2) : S100000x128.Idx → EReal) (ix2 r k) := by
  obtain ⟨-, -, e10, e11, -⟩ := block_index t
  unfold iblk
  rw [View.read_apply]
  show V m c main_arg2 _ = _
  rw [V_main_arg2]
  refine congrArg (m ((c : Thread nD τ).loc main_arg2) : S100000x128.Idx → EReal) (funext fun a => Fin.ext ?_)
  match a with
  | ⟨0, _⟩ => show win0_1.index t (0 : Fin 2) * 5000 + 1 * p.val = r.val; rw [e10, hr]; omega
  | ⟨1, _⟩ => show win0_1.index t (1 : Fin 2) * 128 + 1 * k.val = k.val; rw [e11]; omega

/-- Row p of the bias block at point t is b[5000·t + p]. -/
theorem b_block (c : Dev nD) (t : Fin cfg0.N) (p : Fin 5000) (r : Fin 100000) (hr : r.val = 5000 * t.val + p.val) :
    (iblk m c 2 t : Vec Ideal S5000x1 .f32) (ix2 p 0) = (m ((c : Thread nD τ).loc main_arg3) : S100000.Idx → EReal) (ix1 r) := by
  obtain ⟨-, -, -, -, e20, e21, -⟩ := block_index t
  unfold iblk
  rw [View.read_apply, ← bias_column_apply m c r]
  show V m c main_v0 _ = _
  refine congrArg (V m c main_v0 : S100000x1.Idx → EReal) (funext fun a => Fin.ext ?_)
  match a with
  | ⟨0, _⟩ => show win0_2.index t (0 : Fin 2) * 5000 + 1 * p.val = r.val; rw [e20, hr]; omega
  | ⟨1, _⟩ => show win0_2.index t (1 : Fin 2) * 1 + 1 * 0 = 0; rw [e21]

/-- WHAT POINT t WRITES BACK is block t of `logitsT`. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3]
  unfold out0_3
  rw [View.canon_unit_zero hz]
  simp only [View.ld_unit_zero (S := S5000x128) hz, View.ld_unit_zero (S := S1024x128) hz, View.ld_unit_zero (S := S5000x1) hz]
  obtain ⟨-, -, -, -, -, -, e30, e31⟩ := block_index t
  have ht : t.val < 20 := lt_of_lt_of_eq t.isLt N_0
  funext j
  obtain ⟨p, q, rfl⟩ : ∃ (p : Fin 5000) (q : Fin 1024), j = ix2 p q := ⟨j 0, j 1, eq_ix2 j⟩
  have hp : p.val < 5000 := p.isLt
  rw [View.read_apply]
  have hemb : ((cfg0.win 3).blk t).view.emb (ix2 p q) = (ix2 (⟨5000 * t.val + p.val, by omega⟩ : Fin 100000) q : S100000x1024.Idx) :=
    funext fun a => Fin.ext (by
      match a with
      | ⟨0, _⟩ => show win0_3.index t (0 : Fin 2) * 5000 + 1 * p.val = 5000 * t.val + p.val; rw [e30]; omega
      | ⟨1, _⟩ => show win0_3.index t (1 : Fin 2) * 1024 + 1 * q.val = q.val; rw [e31]; omega)
  rw [hemb]
  show k0_pay1 (F := Ideal) (iblk m c 1 t) (iblk m c 0 t) (iblk m c 2 t) (ix2 p q)
    = Cert.Logits.logitsT (m ((c : Thread nD τ).loc main_arg0)) (m ((c : Thread nD τ).loc main_arg2)) (m ((c : Thread nD τ).loc main_arg3))
        (ix2 (⟨5000 * t.val + p.val, by omega⟩ : Fin 100000) q)
  refine (Cert.KernelIdeal.BlockProduct.stored_apply (iblk m c 1 t) (iblk m c 0 t) (iblk m c 2 t) p q).trans ?_
  rw [Cert.Logits.logitsT_apply]
  unfold Cert.Logits.logitAt
  rw [← Cert.Logits.dot_comm]
  exact congrArg₂ (· + ·)
    (Finset.sum_congr rfl fun k _ => congrArg₂ (· * ·) (w_block m c t p k _ rfl) (x_block m c t q k))
    (b_block m c t p _ rfl)

/-- An entry of the array is in point t's block iff each coordinate is in the block's range on its axis. -/
theorem mem_block (t : Fin cfg0.N) (i : S100000x1024.Idx) :
    i ∈ ((cfg0.win 3).blk t).view.set ↔ ∀ a : Fin 2, win0_3.index t a * S5000x1024.size a ≤ (i a).val ∧ (i a).val < win0_3.index t a * S5000x1024.size a + S5000x1024.size a := by
  show i ∈ ((View.whole main_v1).slice (win0_3.rect t)).set ↔ _
  rw [View.set_slice_whole, Rect.mem_set_unit]
  exact Iff.rfl

/-- Every entry lies in the block of the point its row's quotient by 5000 names. -/
theorem covered (i : S100000x1024.Idx) :
    ∃ t : Fin cfg0.N, (cfg0.win 3).flush t = true ∧ i ∈ ((cfg0.win 3).blk t).view.set := by
  have hi0 : (i 0).val < 100000 := (i 0).isLt
  have hi1 : (i 1).val < 1024 := (i 1).isLt
  have hlt : (i 0).val / 5000 < cfg0.N := by show (i 0).val / 5000 < grid0.N; rw [N_0]; omega
  obtain ⟨-, -, -, -, -, -, e30, e31⟩ := block_index ⟨(i 0).val / 5000, hlt⟩
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 1024 ≤ (i 1).val ∧ (i 1).val < win0_3.index ⟨(i 0).val / 5000, hlt⟩ (1 : Fin 2) * 1024 + 1024
    rw [e31]; omega

/-- THE ARRAY after the region: `logitsT` of the arguments. -/
theorem final (c : Dev nD) : (dats m 0 c).arrAt 3 cfg0.N = target m c :=
  (dats m 0 c).arrAt_eq_of_cover 3 (target m c) (fun t _ => flushed_eq m c t) (covered)

end Cert.KernelIdeal.RegionArray

end
-- ==== Proof.KernelRun.lean ====
/-
  The kernel program's run, read: its result array is `logits` of the arguments, and the arguments end unchanged.

  After the region the program transposes the [100000, 1024] array to [1024, 100000]. The region leaves `logitsT`
  there, and entry (n, v) of the transpose is entry (v, n) of the operand: `logitsT` at (v, n) is `logitAt … n v`, which
  is `logits` at (n, v).
-/
import proofs.«133660_g51384988729771_cont_8to1_c_500_27_alg».proof.Proof.RegionArray

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The result as a function of the arguments at launch. -/
abbrev result (c : Dev nD) : S1024x100000.Idx → EReal :=
  Cert.Logits.logits (m ((c : Thread nD τ).loc main_arg0)) (m ((c : Thread nD τ).loc main_arg2)) (m ((c : Thread nD τ).loc main_arg3))

/-- The transpose of `logitsT` is `logits`. -/
theorem transpose_target (c : Dev nD) :
    transpose S1024x100000 [1, 0] (Cert.KernelIdeal.RegionArray.target m c) transposes_S100000x1024_S1024x100000_1_0 = result m c := by
  funext i
  obtain ⟨n, v, rfl⟩ : ∃ (n : Fin 1024) (v : Fin 100000), i = ix2 n v := ⟨i 0, i 1, eq_ix2 i⟩
  exact transpose_apply [1, 0] (Cert.KernelIdeal.RegionArray.target m c) transposes_S100000x1024_S1024x100000_1_0 (ix2 n v) (ix2 v n)
    (fun b => match b with
      | ⟨0, _⟩ => rfl
      | ⟨1, _⟩ => rfl)

/-- What the line after the region leaves in the result buffer: the transpose of the region's array. -/
theorem tail_result (c : Dev nD) :
    (Pipeline.afterTail₀ cfgs (dats m) 0 (V0 m) [hostOps1] c main_v2 : S1024x100000.Idx → EReal) = result m c := by
  unfold Pipeline.afterTail₀
  show StableHlo.after hostOps1 _ (Proc.devRef .tc main_v2) = _
  after_results
  rw [← transpose_target]
  exact congrArg (fun X : S100000x1024.Idx → EReal => transpose S1024x100000 [1, 0] X transposes_S100000x1024_S1024x100000_1_0)
    ((Pipeline.withArrays_arr spec0 launch0.win.arr_inj c _ _ 3).trans (Cert.KernelIdeal.RegionArray.final m c))

/-- The run: every weakly fair execution terminates with the result buffer at `logits` of the arguments, the labels
    where they were, and the four arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (tail_result m c),
       ((h c).2 main_arg1 (Pipeline.mem_restRefs_of main_arg1 (by decide) (by decide))).trans (W_main_arg1 m (dats m) c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).1 1).trans (((dats m 0 c).arrAt_in 1 rfl _).trans ((A_eq m c 1).trans (V_main_arg2 m c))),
       ((h c).2 main_arg3 (Pipeline.mem_restRefs_of main_arg3 (by decide) (by decide))).trans (W_main_arg3 m (dats m) c)⟩)
    (run_main m ρ)

end Cert.KernelIdeal.RunValue

end
-- ==== Proof.lean ====
/-
  Output-projection logits: a blocked, transposed kernel against the plain jnp expression, equal over the extended reals.

  Both programs take activations x : [1024, 128], integer labels, weights W : [100000, 128] and a bias b : [100000], and
  return the logits [1024, 100000] together with the labels untouched.

  * The reference contracts x with the transpose of W and adds b along the batch axis:
        out[n, v] = (∑ k < 128, x[n, k] · W[v, k]) + b[v].
  * The kernel reshapes b to a column, walks the 20 blocks of 5000 vocabulary rows computing
        blk[p, q] = (∑ k < 128, W[5000·t + p, k] · x[q, k]) + b[5000·t + p]
    into a [100000, 1024] array, and transposes that array afterwards.

  With every float an extended real and every operation exact, the kernel's array is `logitsT`, its transpose is
  `logits`, and the reference's result is `logits` too; the only law between the two is commutativity of the product
  inside the contraction (`Cert.Logits.dot_comm`), which holds at the infinities as well, so the finiteness of the
  inputs is never used. No operation of the kernel was rewritten on the way to its exact reading, so that reading is the
  kernel's own text and `preserves` has nothing to state.

  Modules: Proof/Logits (the function and the law), Proof/ReferenceLogits (the reference is `logits`),
  Proof/BlockProduct (a stored block entry), Proof/RegionArray (the region's array is `logitsT`), Proof/KernelRun
  (the transpose after the region, and the run).
-/
import proofs.«133660_g51384988729771_cont_8to1_c_500_27_alg».proof.Defs
import proofs.«133660_g51384988729771_cont_8to1_c_500_27_alg».proof.Proof.Gen.Kernel
import proofs.«133660_g51384988729771_cont_8to1_c_500_27_alg».proof.Proof.Gen.Kernel.Skeleton
import proofs.«133660_g51384988729771_cont_8to1_c_500_27_alg».proof.Proof.Gen.Kernel.Launch
import proofs.«133660_g51384988729771_cont_8to1_c_500_27_alg».proof.Proof.Gen.Kernel.Points
import proofs.«133660_g51384988729771_cont_8to1_c_500_27_alg».proof.Proof.Gen.Kernel.Frame
import proofs.«133660_g51384988729771_cont_8to1_c_500_27_alg».proof.Proof.Gen.KernelIdeal
import proofs.«133660_g51384988729771_cont_8to1_c_500_27_alg».proof.Proof.Gen.KernelIdeal.Skeleton
import proofs.«133660_g51384988729771_cont_8to1_c_500_27_alg».proof.Proof.Gen.KernelIdeal.Launch
import proofs.«133660_g51384988729771_cont_8to1_c_500_27_alg».proof.Proof.Gen.KernelIdeal.Points
import proofs.«133660_g51384988729771_cont_8to1_c_500_27_alg».proof.Proof.Gen.KernelIdeal.Frame
import proofs.«133660_g51384988729771_cont_8to1_c_500_27_alg».proof.Proof.Gen.ReferenceIdeal
import proofs.«133660_g51384988729771_cont_8to1_c_500_27_alg».proof.Proof.Gen.ReferenceIdeal.Run
import proofs.«133660_g51384988729771_cont_8to1_c_500_27_alg».proof.Proof.Gen.ReferenceIdeal.Read
import proofs.«133660_g51384988729771_cont_8to1_c_500_27_alg».proof.Proof.Gen.Pre_finite_inputs
import proofs.«133660_g51384988729771_cont_8to1_c_500_27_alg».proof.Proof.ReferenceLogits
import proofs.«133660_g51384988729771_cont_8to1_c_500_27_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is five host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both programs end with the result buffer at `logits` of the arguments and the
    labels where they were. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RunValue.result m c,
    fun c => m ((c.tc : Thread Cert.KernelIdeal.nD Cert.KernelIdeal.τ).loc Cert.KernelIdeal.main_arg1),
    Cert.KernelIdeal.RunValue.run m ρ, ?_⟩
  refine (θ_run Cert.ReferenceIdeal.defs _ _).mono (fun _ h c => ⟨?_, (h c).2.1.trans (hagree c).2.1, (h c).2.2⟩)
    (Cert.ReferenceIdeal.Value.run (F := Ideal) m' ρ')
  rw [(h c).1, Cert.ReferenceIdeal.Read.val_main_v4_eq, Cert.ReferenceIdeal.RefValue.result_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
